-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288 : Shape := ⟨1, ![524288]⟩
abbrev S524288x64 : Shape := ⟨2, ![524288, 64]⟩
abbrev S1000000x64 : Shape := ⟨2, ![1000000, 64]⟩
abbrev S1000000 : Shape := ⟨1, ![1000000]⟩
abbrev S1x64 : Shape := ⟨2, ![1, 64]⟩
abbrev S64 : Shape := ⟨1, ![64]⟩
abbrev S192x64 : Shape := ⟨2, ![192, 64]⟩
abbrev S192 : Shape := ⟨1, ![192]⟩
abbrev S_ : Shape := ⟨0, ![]⟩

class Facts : Prop where
  bcast_S_S524288x64 : S_.BroadcastsInDim S524288x64 (![] : Fin 0 → Fin S524288x64.rank)
  reducesTo_S524288x64_S_d0_1 : S524288x64.ReducesTo [0, 1] S_
  h_S_ : 0 < S_.numel
  bcast_S_S524288 : S_.BroadcastsInDim S524288 (![] : Fin 0 → Fin S524288.rank)
  reducesTo_S524288_S_d0 : S524288.ReducesTo [0] S_
  bcast_S_S1000000x64 : S_.BroadcastsInDim S1000000x64 (![] : Fin 0 → Fin S1000000x64.rank)
  reducesTo_S1000000x64_S_d0_1 : S1000000x64.ReducesTo [0, 1] S_
  bcast_S_S1000000 : S_.BroadcastsInDim S1000000 (![] : Fin 0 → Fin S1000000.rank)
  reducesTo_S1000000_S_d0 : S1000000.ReducesTo [0] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg8 : FVec F S192x64 .f32) (main_arg9 : FVec F S192 .f32) (main_arg10 : FVec F S192 .f32) (main_v33 : IVec S_ 1) : IVec S_ 1 :=
  let main_v34 : FVec F S192x64 .f32 := Host.absf main_arg8
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S192 .f32 := Host.absf main_arg9
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S192 .f32 := Host.absf main_arg10
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  main_v48

def fn_part1 {F : FTy → Type} [FloatOps F] (main_arg5 : FVec F S1x64 .f32) (main_arg6 : FVec F S64 .f32) (main_arg7 : FVec F S192x64 .f32) (main_arg8 : FVec F S192x64 .f32) (main_arg9 : FVec F S192 .f32) (main_arg10 : FVec F S192 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg7
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg8 main_arg9 main_arg10 main_v33

def fn {F : FTy → Type} [FloatOps F] (main_arg0 : IVec S524288 32) (main_arg1 : FVec F S524288x64 .f32) (main_arg2 : FVec F S524288 .f32) (main_arg3 : FVec F S1000000x64 .f32) (main_arg4 : FVec F S1000000 .f32) (main_arg5 : FVec F S1x64 .f32) (main_arg6 : FVec F S64 .f32) (main_arg7 : FVec F S192x64 .f32) (main_arg8 : FVec F S192x64 .f32) (main_arg9 : FVec F S192 .f32) (main_arg10 : FVec F S192 .f32) : IVec S_ 1 :=
  let main_v0 : FVec F S524288x64 .f32 := Host.absf main_arg1
  let main_cst : FVec F S_ .f32 := constant S_ .f32 0x7F800000#32
  let main_v1 : FVec F S524288x64 .f32 := broadcastInDim S524288x64 ![] bcast_S_S524288x64 main_cst
  let main_v2 : IVec S524288x64 1 := cmpf .olt main_v0 main_v1
  let main_c : IVec S_ 1 := constantI S_ 1 1#1
  let main_v3 : IVec S_ 1 := (fun x v => Host.reduce IntOp.andi x v reducesTo_S524288x64_S_d0_1 h_S_) main_v2 main_c
  let main_v4 : FVec F S524288 .f32 := Host.absf main_arg2
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S1000000x64 .f32 := Host.absf main_arg3
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_v14 : FVec F S1000000 .f32 := Host.absf main_arg4
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg5 main_arg6 main_arg7 main_arg8 main_arg9 main_arg10 main_v13 main_v16
-- ==== Kernel.lean ====
abbrev S524288 : Shape := ⟨1, ![524288]⟩
abbrev S524288x64 : Shape := ⟨2, ![524288, 64]⟩
abbrev S1000000x64 : Shape := ⟨2, ![1000000, 64]⟩
abbrev S1000000 : Shape := ⟨1, ![1000000]⟩
abbrev S1x64 : Shape := ⟨2, ![1, 64]⟩
abbrev S64 : Shape := ⟨1, ![64]⟩
abbrev S192x64 : Shape := ⟨2, ![192, 64]⟩
abbrev S192 : Shape := ⟨1, ![192]⟩
abbrev S_ : Shape := ⟨0, ![]⟩
abbrev S524288x1 : Shape := ⟨2, ![524288, 1]⟩
abbrev S64x192 : Shape := ⟨2, ![64, 192]⟩
abbrev S1x192 : Shape := ⟨2, ![1, 192]⟩
abbrev S4096x64 : Shape := ⟨2, ![4096, 64]⟩
abbrev S4096x1 : Shape := ⟨2, ![4096, 1]⟩
abbrev S4096x192 : Shape := ⟨2, ![4096, 192]⟩

abbrev nBuf : Space → Nat
  | .hbm => 55
  | .vmem => 14
  | .smem => 0
  | _ => 0

abbrev bufTy : (tb : Table) → Fin (tcTables nBuf tb) → BufTy
  | .hbm, ⟨0, _⟩ => ⟨S524288, .i32⟩
  | .hbm, ⟨1, _⟩ => ⟨S524288x64, .f32⟩
  | .hbm, ⟨2, _⟩ => ⟨S524288, .f32⟩
  | .hbm, ⟨3, _⟩ => ⟨S1000000x64, .f32⟩
  | .hbm, ⟨4, _⟩ => ⟨S1000000, .f32⟩
  | .hbm, ⟨5, _⟩ => ⟨S1x64, .f32⟩
  | .hbm, ⟨6, _⟩ => ⟨S64, .f32⟩
  | .hbm, ⟨7, _⟩ => ⟨S192x64, .f32⟩
  | .hbm, ⟨8, _⟩ => ⟨S192x64, .f32⟩
  | .hbm, ⟨9, _⟩ => ⟨S192, .f32⟩
  | .hbm, ⟨10, _⟩ => ⟨S192, .f32⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S524288x64, .f32⟩
  | .hbm, ⟨20, _⟩ => ⟨S_, .i32⟩
  | .hbm, ⟨21, _⟩ => ⟨S524288, .i32⟩
  | .hbm, ⟨22, _⟩ => ⟨S524288, .i1⟩
  | .hbm, ⟨23, _⟩ => ⟨S_, .i32⟩
  | .hbm, ⟨24, _⟩ => ⟨S524288, .i32⟩
  | .hbm, ⟨25, _⟩ => ⟨S524288, .i32⟩
  | .hbm, ⟨26, _⟩ => ⟨S524288, .i32⟩
  | .hbm, ⟨27, _⟩ => ⟨S524288x1, .i32⟩
  | .hbm, ⟨28, _⟩ => ⟨S524288, .f32⟩
  | .hbm, ⟨29, _⟩ => ⟨S524288, .f32⟩
  | .hbm, ⟨30, _⟩ => ⟨S524288x1, .f32⟩
  | .hbm, ⟨31, _⟩ => ⟨S1x64, .f32⟩
  | .hbm, ⟨32, _⟩ => ⟨S64x192, .f32⟩
  | .hbm, ⟨33, _⟩ => ⟨S64x192, .f32⟩
  | .hbm, ⟨34, _⟩ => ⟨S1x192, .f32⟩
  | .hbm, ⟨35, _⟩ => ⟨S1x192, .f32⟩
  | .hbm, ⟨36, _⟩ => ⟨S524288x64, .f32⟩
  | .hbm, ⟨37, _⟩ => ⟨S_, .i32⟩
  | .hbm, ⟨38, _⟩ => ⟨S524288, .i32⟩
  | .hbm, ⟨39, _⟩ => ⟨S524288, .i1⟩
  | .hbm, ⟨40, _⟩ => ⟨S_, .i32⟩
  | .hbm, ⟨41, _⟩ => ⟨S524288, .i32⟩
  | .hbm, ⟨42, _⟩ => ⟨S524288, .i32⟩
  | .hbm, ⟨43, _⟩ => ⟨S524288, .i32⟩
  | .hbm, ⟨44, _⟩ => ⟨S524288x1, .i32⟩
  | .hbm, ⟨45, _⟩ => ⟨S1000000x64, .f32⟩
  | .hbm, ⟨46, _⟩ => ⟨S_, .i32⟩
  | .hbm, ⟨47, _⟩ => ⟨S524288, .i32⟩
  | .hbm, ⟨48, _⟩ => ⟨S524288, .i1⟩
  | .hbm, ⟨49, _⟩ => ⟨S_, .i32⟩
  | .hbm, ⟨50, _⟩ => ⟨S524288, .i32⟩
  | .hbm, ⟨51, _⟩ => ⟨S524288, .i32⟩
  | .hbm, ⟨52, _⟩ => ⟨S524288, .i32⟩
  | .hbm, ⟨53, _⟩ => ⟨S524288x1, .i32⟩
  | .hbm, ⟨54, _⟩ => ⟨S1000000, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x1, .f32⟩
  | .local _ .vmem, ⟨5, _⟩ => ⟨S4096x1, .f32⟩
  | .local _ .vmem, ⟨6, _⟩ => ⟨S1x64, .f32⟩
  | .local _ .vmem, ⟨7, _⟩ => ⟨S1x64, .f32⟩
  | .local _ .vmem, ⟨8, _⟩ => ⟨S64x192, .f32⟩
  | .local _ .vmem, ⟨9, _⟩ => ⟨S64x192, .f32⟩
  | .local _ .vmem, ⟨10, _⟩ => ⟨S1x192, .f32⟩
  | .local _ .vmem, ⟨11, _⟩ => ⟨S1x192, .f32⟩
  | .local _ .vmem, ⟨12, _⟩ => ⟨S4096x64, .f32⟩
  | .local _ .vmem, ⟨13, _⟩ => ⟨S4096x64, .f32⟩
  | _, _ => ⟨S524288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S64_S1x64_1 : S64.BroadcastsInDim S1x64 (![1] : Fin 1 → Fin S1x64.rank)
  transposes_S192x64_S64x192_1_0 : S192x64.Transposes [1, 0] S64x192
  bcast_S192_S1x192_1 : S192.BroadcastsInDim S1x192 (![1] : Fin 1 → Fin S1x192.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S4096x1_S4096x64 : S4096x1.Broadcasts S4096x64
  broadcasts_S1x64_S4096x64 : S1x64.Broadcasts S4096x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  bitsLt_bf16_f32 : FTy.bits .bf16 < FTy.bits .f32
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S4096x192 : S1x192.Broadcasts S4096x192
  slices_S4096x192_o0_0_S4096x64 : S4096x192.Slices ![0, 0] S4096x64
  slices_S4096x192_o0_64_S4096x64 : S4096x192.Slices ![0, 64] S4096x64
  slices_S4096x192_o0_128_S4096x64 : S4096x192.Slices ![0, 128] S4096x64
  gather_S1000000x64_S524288x1_S524288x64_1_0_n_n_0_1_164_wf : GatherDims.WF S1000000x64 S524288x1 S524288x64 [1] [0] [] [0] [] 1 ![1, 64]
  gather_S1000000_S524288x1_S524288_n_0_n_n_0_1_1_wf : GatherDims.WF S1000000 S524288x1 S524288 [] [0] [] [0] [] 1 ![1]
  dot_S4096x64_S64x192_S4096x192_1_0_0_1_n_n_wf : DotDims.WF S4096x64 S64x192 S4096x192 [1] [0] [0] [1] [] []
  scatter_S1000000x64_S524288x1_S524288x64_1_0_0_1_wf : ScatterDims.WF S1000000x64 S524288x1 S524288x64 [1] [0] [0] 1
  scatter_S1000000_S524288x1_S524288_n_0_0_1_wf : ScatterDims.WF S1000000 S524288x1 S524288 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S524288x64.size a
  hwx0_1 : ∀ i : grid0.Coords, EltTy.bits .f32 = 32 ∨ (Rect.block (s := S524288x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S524288x1.size a
  hwx0_2 : ∀ i : grid0.Coords, EltTy.bits .f32 = 32 ∨ (Rect.block (s := S524288x1) S4096x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x192.size a ≤ S64x192.size a
  hwx0_5 : ∀ i : grid0.Coords, EltTy.bits .f32 = 32 ∨ (Rect.block (s := S64x192) S64x192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x192.size a ≤ S64x192.size a
  hwx0_6 : ∀ i : grid0.Coords, EltTy.bits .f32 = 32 ∨ (Rect.block (s := S64x192) S64x192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x192.size a ≤ S1x192.size a
  hwx0_7 : ∀ i : grid0.Coords, EltTy.bits .f32 = 32 ∨ (Rect.block (s := S1x192) S1x192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x192.size a ≤ S1x192.size a
  hwx0_8 : ∀ i : grid0.Coords, EltTy.bits .f32 = 32 ∨ (Rect.block (s := S1x192) S1x192.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x64.size a ≤ S524288x64.size a
  hwx0_9 : ∀ i : grid0.Coords, EltTy.bits .f32 = 32 ∨ (Rect.block (s := S524288x64) S4096x64.size (cc0_transform_9 i) (hinb0_9 i)).WholeWords (EltTy.packing .f32)

variable [Facts₀]

def gather_S1000000x64_S524288x1_S524288x64_1_0_n_n_0_1_164 : GatherDims S1000000x64 S524288x1 S524288x64 where
  offsetDims := [1]
  collapsedSliceDims := [0]
  operandBatchingDims := []
  startIndicesBatchingDims := []
  startIndexMap := [0]
  indexVectorDim := 1
  sliceSizes := ![1, 64]
  wf := gather_S1000000x64_S524288x1_S524288x64_1_0_n_n_0_1_164_wf
def gather_S1000000_S524288x1_S524288_n_0_n_n_0_1_1 : GatherDims S1000000 S524288x1 S524288 where
  offsetDims := []
  collapsedSliceDims := [0]
  operandBatchingDims := []
  startIndicesBatchingDims := []
  startIndexMap := [0]
  indexVectorDim := 1
  sliceSizes := ![1]
  wf := gather_S1000000_S524288x1_S524288_n_0_n_n_0_1_1_wf
def dot_S4096x64_S64x192_S4096x192_1_0_0_1_n_n : DotDims S4096x64 S64x192 S4096x192 where
  lhsContracting := [1]
  rhsContracting := [0]
  lhsNonContracting := [0]
  rhsNonContracting := [1]
  lhsBatch := []
  rhsBatch := []
  wf := dot_S4096x64_S64x192_S4096x192_1_0_0_1_n_n_wf
def scatter_S1000000x64_S524288x1_S524288x64_1_0_0_1 : ScatterDims S1000000x64 S524288x1 S524288x64 where
  updateWindowDims := [1]
  insertedWindowDims := [0]
  scatterDimsToOperandDims := [0]
  indexVectorDim := 1
  wf := scatter_S1000000x64_S524288x1_S524288x64_1_0_0_1_wf
def scatter_S1000000_S524288x1_S524288_n_0_0_1 : ScatterDims S1000000 S524288x1 S524288 where
  updateWindowDims := []
  insertedWindowDims := [0]
  scatterDimsToOperandDims := [0]
  indexVectorDim := 1
  wf := scatter_S1000000_S524288x1_S524288_n_0_0_1_wf

abbrev win0_0 : Pipeline.Window sig grid0 :=
  Pipeline.Window.ofSpec (Memref.whole main_arg1) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S64x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S64x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S4096x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S524288 : Shape := ⟨1, ![524288]⟩
abbrev S524288x64 : Shape := ⟨2, ![524288, 64]⟩
abbrev S1000000x64 : Shape := ⟨2, ![1000000, 64]⟩
abbrev S1000000 : Shape := ⟨1, ![1000000]⟩
abbrev S1x64 : Shape := ⟨2, ![1, 64]⟩
abbrev S64 : Shape := ⟨1, ![64]⟩
abbrev S192x64 : Shape := ⟨2, ![192, 64]⟩
abbrev S192 : Shape := ⟨1, ![192]⟩
abbrev S_ : Shape := ⟨0, ![]⟩
abbrev S524288x1 : Shape := ⟨2, ![524288, 1]⟩
abbrev S64x192 : Shape := ⟨2, ![64, 192]⟩
abbrev S524288x192 : Shape := ⟨2, ![524288, 192]⟩
abbrev S1x192 : Shape := ⟨2, ![1, 192]⟩

abbrev nBuf : Space → Nat
  | .hbm => 101
  | .vmem => 0
  | .smem => 0
  | _ => 0

abbrev bufTy : (tb : Table) → Fin (tcTables nBuf tb) → BufTy
  | .hbm, ⟨0, _⟩ => ⟨S524288, .i32⟩
  | .hbm, ⟨1, _⟩ => ⟨S524288x64, .f32⟩
  | .hbm, ⟨2, _⟩ => ⟨S524288, .f32⟩
  | .hbm, ⟨3, _⟩ => ⟨S1000000x64, .f32⟩
  | .hbm, ⟨4, _⟩ => ⟨S1000000, .f32⟩
  | .hbm, ⟨5, _⟩ => ⟨S1x64, .f32⟩
  | .hbm, ⟨6, _⟩ => ⟨S64, .f32⟩
  | .hbm, ⟨7, _⟩ => ⟨S192x64, .f32⟩
  | .hbm, ⟨8, _⟩ => ⟨S192x64, .f32⟩
  | .hbm, ⟨9, _⟩ => ⟨S192, .f32⟩
  | .hbm, ⟨10, _⟩ => ⟨S192, .f32⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S524288x64, .f32⟩
  | .hbm, ⟨20, _⟩ => ⟨S_, .i32⟩
  | .hbm, ⟨21, _⟩ => ⟨S524288, .i32⟩
  | .hbm, ⟨22, _⟩ => ⟨S524288, .i1⟩
  | .hbm, ⟨23, _⟩ => ⟨S_, .i32⟩
  | .hbm, ⟨24, _⟩ => ⟨S524288, .i32⟩
  | .hbm, ⟨25, _⟩ => ⟨S524288, .i32⟩
  | .hbm, ⟨26, _⟩ => ⟨S524288, .i32⟩
  | .hbm, ⟨27, _⟩ => ⟨S524288x1, .i32⟩
  | .hbm, ⟨28, _⟩ => ⟨S524288, .f32⟩
  | .hbm, ⟨29, _⟩ => ⟨S524288, .f32⟩
  | .hbm, ⟨30, _⟩ => ⟨S524288x1, .f32⟩
  | .hbm, ⟨31, _⟩ => ⟨S64, .f32⟩
  | .hbm, ⟨32, _⟩ => ⟨S1x64, .f32⟩
  | .hbm, ⟨33, _⟩ => ⟨S524288x64, .f32⟩
  | .hbm, ⟨34, _⟩ => ⟨S524288x64, .f32⟩
  | .hbm, ⟨35, _⟩ => ⟨S524288x64, .f32⟩
  | .hbm, ⟨36, _⟩ => ⟨S1x64, .f32⟩
  | .hbm, ⟨37, _⟩ => ⟨S524288x64, .f32⟩
  | .hbm, ⟨38, _⟩ => ⟨S524288x64, .f32⟩
  | .hbm, ⟨39, _⟩ => ⟨S524288x64, .f32⟩
  | .hbm, ⟨40, _⟩ => ⟨S64x192, .f32⟩
  | .hbm, ⟨41, _⟩ => ⟨S524288x192, .f32⟩
  | .hbm, ⟨42, _⟩ => ⟨S1x192, .f32⟩
  | .hbm, ⟨43, _⟩ => ⟨S524288x192, .f32⟩
  | .hbm, ⟨44, _⟩ => ⟨S524288x192, .f32⟩
  | .hbm, ⟨45, _⟩ => ⟨S64x192, .f32⟩
  | .hbm, ⟨46, _⟩ => ⟨S524288x192, .f32⟩
  | .hbm, ⟨47, _⟩ => ⟨S1x192, .f32⟩
  | .hbm, ⟨48, _⟩ => ⟨S524288x192, .f32⟩
  | .hbm, ⟨49, _⟩ => ⟨S524288x192, .f32⟩
  | .hbm, ⟨50, _⟩ => ⟨S524288x64, .f32⟩
  | .hbm, ⟨51, _⟩ => ⟨S524288x64, .f32⟩
  | .hbm, ⟨52, _⟩ => ⟨S524288x64, .f32⟩
  | .hbm, ⟨53, _⟩ => ⟨S524288x64, .f32⟩
  | .hbm, ⟨54, _⟩ => ⟨S524288x64, .f32⟩
  | .hbm, ⟨55, _⟩ => ⟨S524288x64, .f32⟩
  | .hbm, ⟨56, _⟩ => ⟨S524288x64, .f32⟩
  | .hbm, ⟨57, _⟩ => ⟨S524288x64, .f32⟩
  | .hbm, ⟨58, _⟩ => ⟨S524288x64, .f32⟩
  | .hbm, ⟨59, _⟩ => ⟨S_, .f32⟩
  | .hbm, ⟨60, _⟩ => ⟨S524288x64, .f32⟩
  | .hbm, ⟨61, _⟩ => ⟨S524288x64, .f32⟩
  | .hbm, ⟨62, _⟩ => ⟨S_, .f32⟩
  | .hbm, ⟨63, _⟩ => ⟨S524288x64, .f32⟩
  | .hbm, ⟨64, _⟩ => ⟨S524288x64, .f32⟩
  | .hbm, ⟨65, _⟩ => ⟨S524288x64, .f32⟩
  | .hbm, ⟨66, _⟩ => ⟨S524288x64, .f32⟩
  | .hbm, ⟨67, _⟩ => ⟨S524288x64, .f32⟩
  | .hbm, ⟨68, _⟩ => ⟨S_, .f32⟩
  | .hbm, ⟨69, _⟩ => ⟨S524288x64, .f32⟩
  | .hbm, ⟨70, _⟩ => ⟨S524288x64, .f32⟩
  | .hbm, ⟨71, _⟩ => ⟨S_, .f32⟩
  | .hbm, ⟨72, _⟩ => ⟨S524288x64, .f32⟩
  | .hbm, ⟨73, _⟩ => ⟨S524288x64, .f32⟩
  | .hbm, ⟨74, _⟩ => ⟨S524288x64, .f32⟩
  | .hbm, ⟨75, _⟩ => ⟨S524288x64, .f32⟩
  | .hbm, ⟨76, _⟩ => ⟨S524288x64, .f32⟩
  | .hbm, ⟨77, _⟩ => ⟨S_, .f32⟩
  | .hbm, ⟨78, _⟩ => ⟨S524288x64, .f32⟩
  | .hbm, ⟨79, _⟩ => ⟨S524288x64, .f32⟩
  | .hbm, ⟨80, _⟩ => ⟨S524288x64, .f32⟩
  | .hbm, ⟨81, _⟩ => ⟨S524288x64, .f32⟩
  | .hbm, ⟨82, _⟩ => ⟨S524288x64, .f32⟩
  | .hbm, ⟨83, _⟩ => ⟨S_, .i32⟩
  | .hbm, ⟨84, _⟩ => ⟨S524288, .i32⟩
  | .hbm, ⟨85, _⟩ => ⟨S524288, .i1⟩
  | .hbm, ⟨86, _⟩ => ⟨S_, .i32⟩
  | .hbm, ⟨87, _⟩ => ⟨S524288, .i32⟩
  | .hbm, ⟨88, _⟩ => ⟨S524288, .i32⟩
  | .hbm, ⟨89, _⟩ => ⟨S524288, .i32⟩
  | .hbm, ⟨90, _⟩ => ⟨S524288x1, .i32⟩
  | .hbm, ⟨91, _⟩ => ⟨S1000000x64, .f32⟩
  | .hbm, ⟨92, _⟩ => ⟨S_, .i32⟩
  | .hbm, ⟨93, _⟩ => ⟨S524288, .i32⟩
  | .hbm, ⟨94, _⟩ => ⟨S524288, .i1⟩
  | .hbm, ⟨95, _⟩ => ⟨S_, .i32⟩
  | .hbm, ⟨96, _⟩ => ⟨S524288, .i32⟩
  | .hbm, ⟨97, _⟩ => ⟨S524288, .i32⟩
  | .hbm, ⟨98, _⟩ => ⟨S524288, .i32⟩
  | .hbm, ⟨99, _⟩ => ⟨S524288x1, .i32⟩
  | .hbm, ⟨100, _⟩ => ⟨S1000000, .f32⟩
  | _, _ => ⟨S524288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_7 : Ref sig .tc := ⟨.hbm, 83, rfl⟩
abbrev main_v63 : Ref sig .tc := ⟨.hbm, 84, rfl⟩
abbrev main_v64 : Ref sig .tc := ⟨.hbm, 85, rfl⟩
abbrev main_c_8 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_9 : Ref sig .tc := ⟨.hbm, 92, rfl⟩
abbrev main_v70 : Ref sig .tc := ⟨.hbm, 93, rfl⟩
abbrev main_v71 : Ref sig .tc := ⟨.hbm, 94, rfl⟩
abbrev main_c_10 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  shapeCasts_S1x64_S64 : S1x64.ShapeCasts S64
  bcast_S64_S1x64_1 : S64.BroadcastsInDim S1x64 (![1] : Fin 1 → Fin S1x64.rank)
  bcast_S524288x1_S524288x64_0_1 : S524288x1.BroadcastsInDim S524288x64 (![0, 1] : Fin 2 → Fin S524288x64.rank)
  bcast_S1x64_S524288x64_0_1 : S1x64.BroadcastsInDim S524288x64 (![0, 1] : Fin 2 → Fin S524288x64.rank)
  transposes_S192x64_S64x192_1_0 : S192x64.Transposes [1, 0] S64x192
  bcast_S192_S1x192_1 : S192.BroadcastsInDim S1x192 (![1] : Fin 1 → Fin S1x192.rank)
  bcast_S1x192_S524288x192_0_1 : S1x192.BroadcastsInDim S524288x192 (![0, 1] : Fin 2 → Fin S524288x192.rank)
  slices_S524288x192_S524288x64_0_0 : S524288x192.Slices ![0, 0] S524288x64
  slices_S524288x192_S524288x64_0_64 : S524288x192.Slices ![0, 64] S524288x64
  slices_S524288x192_S524288x64_0_128 : S524288x192.Slices ![0, 128] S524288x64
  bcast_S_S524288x64 : S_.BroadcastsInDim S524288x64 (![] : Fin 0 → Fin S524288x64.rank)
  gather_S1000000x64_S524288x1_S524288x64_1_0_n_n_0_1_164_wf : GatherDims.WF S1000000x64 S524288x1 S524288x64 [1] [0] [] [0] [] 1 ![1, 64]
  gather_S1000000_S524288x1_S524288_n_0_n_n_0_1_1_wf : GatherDims.WF S1000000 S524288x1 S524288 [] [0] [] [0] [] 1 ![1]
  dot_S524288x64_S64x192_S524288x192_1_0_0_1_n_n_wf : DotDims.WF S524288x64 S64x192 S524288x192 [1] [0] [0] [1] [] []
  scatter_S1000000x64_S524288x1_S524288x64_1_0_0_1_wf : ScatterDims.WF S1000000x64 S524288x1 S524288x64 [1] [0] [0] 1
  scatter_S1000000_S524288x1_S524288_n_0_0_1_wf : ScatterDims.WF S1000000 S524288x1 S524288 [] [0] [0] 1

variable [Facts₀]

def gather_S1000000x64_S524288x1_S524288x64_1_0_n_n_0_1_164 : GatherDims S1000000x64 S524288x1 S524288x64 where
  offsetDims := [1]
  collapsedSliceDims := [0]
  operandBatchingDims := []
  startIndicesBatchingDims := []
  startIndexMap := [0]
  indexVectorDim := 1
  sliceSizes := ![1, 64]
  wf := gather_S1000000x64_S524288x1_S524288x64_1_0_n_n_0_1_164_wf
def gather_S1000000_S524288x1_S524288_n_0_n_n_0_1_1 : GatherDims S1000000 S524288x1 S524288 where
  offsetDims := []
  collapsedSliceDims := [0]
  operandBatchingDims := []
  startIndicesBatchingDims := []
  startIndexMap := [0]
  indexVectorDim := 1
  sliceSizes := ![1]
  wf := gather_S1000000_S524288x1_S524288_n_0_n_n_0_1_1_wf
def dot_S524288x64_S64x192_S524288x192_1_0_0_1_n_n : DotDims S524288x64 S64x192 S524288x192 where
  lhsContracting := [1]
  rhsContracting := [0]
  lhsNonContracting := [0]
  rhsNonContracting := [1]
  lhsBatch := []
  rhsBatch := []
  wf := dot_S524288x64_S64x192_S524288x192_1_0_0_1_n_n_wf
def scatter_S1000000x64_S524288x1_S524288x64_1_0_0_1 : ScatterDims S1000000x64 S524288x1 S524288x64 where
  updateWindowDims := [1]
  insertedWindowDims := [0]
  scatterDimsToOperandDims := [0]
  indexVectorDim := 1
  wf := scatter_S1000000x64_S524288x1_S524288x64_1_0_0_1_wf
def scatter_S1000000_S524288x1_S524288_n_0_0_1 : ScatterDims S1000000 S524288x1 S524288 where
  updateWindowDims := []
  insertedWindowDims := [0]
  scatterDimsToOperandDims := [0]
  indexVectorDim := 1
  wf := scatter_S1000000_S524288x1_S524288_n_0_0_1_wf

class Facts : Prop extends Facts₀ where

variable [Facts]
-- ==== Proof.GruSpec.lean ====
/-
  The gated recurrent update with a linear time encoding, as ONE function of its arrays, index by index, on the
  extended reals.

  Row `p` of the event batch carries an embedding `e p`, a previous state `h p` (both of 64 entries) and a time
  difference `δ p`. The cell's input is `x p k = e p k + (δ p · ω k + β k)`. Two affine maps into 192 = 3·64 lanes,
  `gi p j = Σ_k x p k · A k j + a j` and `gh p j = Σ_k h p k · B k j + b j`, are cut into three bands of 64 lanes
  (reset, update, candidate) and combined lane by lane:
    r = σ(gi_q + gh_q),  z = σ(gi_{64+q} + gh_{64+q}),  n = tanh(gi_{128+q} + r · gh_{128+q}),
    out p q = (1 − z) · n + z · h p q,
  with σ the logistic function `1 / (1 + e^{−x})`. The definitions are generic in the number of rows, so the same
  text reads a block of rows and the whole batch. The constant `1` is kept as the binary word both programs print.
-/
import Idealize.ShloMosaic.Lib.ValueIdx
import Idealize.ShloMosaic.PureOps.Ideal

noncomputable section

open scoped BigOperators

namespace Cert.GruSpec

open Idealize.ShloMosaic Idealize.ShloMosaic.ValueIdx

/-- A matrix of extended reals with `a` rows and `b` columns, as a function of its index. -/
abbrev Mat (a b : ℕ) : Type := (⟨2, ![a, b]⟩ : Shape).Idx → EReal

/-- Lane `q` of the reset band. -/
def lo (q : Fin 64) : Fin 192 := ⟨q.val, by omega⟩
/-- Lane `q` of the update band. -/
def mid (q : Fin 64) : Fin 192 := ⟨64 + q.val, by omega⟩
/-- Lane `q` of the candidate band. -/
def hi (q : Fin 64) : Fin 192 := ⟨128 + q.val, by omega⟩

/-- The word both programs print for the constant one. -/
abbrev one : EReal := Ideal.ofBits .f32 0x3F800000#32

variable {R : ℕ}

/-- The input-side affine map of row `p`, lane `j`: the embedding plus the time encoding, times `A`, plus `a`. -/
def gateIn (e : Mat R 64) (δ : Mat R 1) (ω β : Mat 1 64) (A : Mat 64 192) (a : Mat 1 192) (p : Fin R) (j : Fin 192) : EReal :=
  (∑ k : Fin 64, (e (ix2 p k) + (δ (ix2 p (0 : Fin 1)) * ω (ix2 (0 : Fin 1) k) + β (ix2 (0 : Fin 1) k))) * A (ix2 k j))
    + a (ix2 (0 : Fin 1) j)

/-- The state-side affine map of row `p`, lane `j`. -/
def gateHid (h : Mat R 64) (B : Mat 64 192) (b : Mat 1 192) (p : Fin R) (j : Fin 192) : EReal :=
  (∑ k : Fin 64, h (ix2 p k) * B (ix2 k j)) + b (ix2 (0 : Fin 1) j)

/-- The three bands of the two affine maps combined into the new state's lane `q`, given the old state's lane. -/
def cell (gi gh : Fin 192 → EReal) (hq : EReal) (q : Fin 64) : EReal :=
  (one - Ideal.logistic (gi (mid q) + gh (mid q)))
      * Ideal.tanh (gi (hi q) + Ideal.logistic (gi (lo q) + gh (lo q)) * gh (hi q))
    + Ideal.logistic (gi (mid q) + gh (mid q)) * hq

/-- The updated state of every row, as one array. -/
def update (e h : Mat R 64) (δ : Mat R 1) (ω β : Mat 1 64) (A B : Mat 64 192) (a b : Mat 1 192) : Mat R 64 :=
  fun i => cell (gateIn e δ ω β A a (i 0)) (gateHid h B b (i 0)) (h i) (i 1)

theorem update_apply (e h : Mat R 64) (δ : Mat R 1) (ω β : Mat 1 64) (A B : Mat 64 192) (a b : Mat 1 192)
    (p : Fin R) (q : Fin 64) :
    update e h δ ω β A B a b (ix2 p q) = cell (gateIn e δ ω β A a p) (gateHid h B b p) (h (ix2 p q)) q := rfl

/-- The input-side map reads its arrays only at row `p`, at the one row of each row array, and at the weight's entries:
    arrays that agree there give the same value. -/
theorem gateIn_congr {R R' : ℕ} {e : Mat R 64} {δ : Mat R 1} {ω β : Mat 1 64} {A : Mat 64 192} {a : Mat 1 192}
    {e' : Mat R' 64} {δ' : Mat R' 1} {ω' β' : Mat 1 64} {A' : Mat 64 192} {a' : Mat 1 192} {p : Fin R} {p' : Fin R'}
    (he : ∀ k, e (ix2 p k) = e' (ix2 p' k)) (hδ : δ (ix2 p (0 : Fin 1)) = δ' (ix2 p' (0 : Fin 1)))
    (hω : ∀ k, ω (ix2 (0 : Fin 1) k) = ω' (ix2 (0 : Fin 1) k)) (hβ : ∀ k, β (ix2 (0 : Fin 1) k) = β' (ix2 (0 : Fin 1) k))
    (hA : ∀ k j, A (ix2 k j) = A' (ix2 k j)) (ha : ∀ j, a (ix2 (0 : Fin 1) j) = a' (ix2 (0 : Fin 1) j)) (j : Fin 192) :
    gateIn e δ ω β A a p j = gateIn e' δ' ω' β' A' a' p' j := by
  unfold gateIn
  rw [ha j, hδ]
  exact congrArg (· + a' (ix2 (0 : Fin 1) j)) (Finset.sum_congr rfl fun k _ => by rw [he k, hω k, hβ k, hA k j])

/-- The state-side map likewise. -/
theorem gateHid_congr {R R' : ℕ} {h : Mat R 64} {B : Mat 64 192} {b : Mat 1 192} {h' : Mat R' 64} {B' : Mat 64 192}
    {b' : Mat 1 192} {p : Fin R} {p' : Fin R'} (hh : ∀ k, h (ix2 p k) = h' (ix2 p' k))
    (hB : ∀ k j, B (ix2 k j) = B' (ix2 k j)) (hb : ∀ j, b (ix2 (0 : Fin 1) j) = b' (ix2 (0 : Fin 1) j)) (j : Fin 192) :
    gateHid h B b p j = gateHid h' B' b' p' j := by
  unfold gateHid
  rw [hb j]
  exact congrArg (· + b' (ix2 (0 : Fin 1) j)) (Finset.sum_congr rfl fun k _ => by rw [hh k, hB k j])

/-- The lane combination of equal bands and equal old states is equal. -/
theorem cell_congr {gi gi' gh gh' : Fin 192 → EReal} {hq hq' : EReal} (q : Fin 64) (h1 : ∀ j, gi j = gi' j)
    (h2 : ∀ j, gh j = gh' j) (h3 : hq = hq') : cell gi gh hq q = cell gi' gh' hq' q := by
  rw [funext h1, funext h2, h3]

/-- The printed word for one is the real number one. -/
theorem one_eq : one = 1 := by
  simp [one, Ideal.ofBits, Ideal.ieee, -EReal.coe_mul]; norm_num

/-- The logistic function spelled out with the printed ones, quotient of one by one plus the exponential of the
    negated argument, is the logistic function. -/
theorem logistic_spelled (x : EReal) : Ideal.div one (one + Ideal.exp (-x)) = Ideal.logistic x := by
  rw [one_eq]; rfl

end Cert.GruSpec

end
-- ==== Proof.LibReadAt.lean ====
/-
  Layout operations, a lane sum and a plain matrix product read at an index given by coordinates, at the extended reals:
  a reshape that merges or splits the two leading axes (row-major: row g·a + i), a vector viewed as a column, a matrix
  under two leading unit axes, a per-row scalar broadcast over a stack of matrices, the sum along the lanes of a matrix,
  and an m×k by k×n product into a zero accumulator.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReadAt

open Idealize.ShloMosaic Idealize.ShloMosaic.ValueIdx

variable {α : Type}

/-! ## Shape casts that merge or split the two leading axes (row-major: row `g * a + i`) -/

/-- A `[G, a, b]` array cast to `[R, b]` (R = G·a) reads, at row `r = g·a + i` and column `j`, the operand at `(g, i, j)`. -/
theorem shapeCast_gab_rb_apply {G a b R : ℕ} (x : (⟨3, ![G, a, b]⟩ : Shape).Idx → α)
    (h : (⟨3, ![G, a, b]⟩ : Shape).ShapeCasts ⟨2, ![R, b]⟩) (g : Fin G) (i : Fin a) (j : Fin b) (r : Fin R)
    (hr : r.val = g.val * a + i.val) :
    shapeCast ⟨2, ![R, b]⟩ x h (ix2 r j) = x (ix3 g i j) :=
  shapeCast_apply x h _ _ (by
    rw [Shape.rowMajor_val_three, Shape.rowMajor_val_two]
    show (g.val * a + i.val) * b + j.val = r.val * b + j.val
    rw [hr])

/-- An `[R, b]` array cast to `[G, a, b]` (R = G·a) reads, at `(g, i, j)`, the operand at row `r = g·a + i`, column `j`. -/
theorem shapeCast_rb_gab_apply {G a b R : ℕ} (x : (⟨2, ![R, b]⟩ : Shape).Idx → α)
    (h : (⟨2, ![R, b]⟩ : Shape).ShapeCasts ⟨3, ![G, a, b]⟩) (g : Fin G) (i : Fin a) (j : Fin b) (r : Fin R)
    (hr : r.val = g.val * a + i.val) :
    shapeCast ⟨3, ![G, a, b]⟩ x h (ix3 g i j) = x (ix2 r j) :=
  shapeCast_apply x h _ _ (by
    rw [Shape.rowMajor_val_three, Shape.rowMajor_val_two]
    show r.val * b + j.val = (g.val * a + i.val) * b + j.val
    rw [hr])

/-! ## The keepdims column forms -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu', Nat.zero_mul, Nat.zero_add])

/-! ## A per-row scalar `[a, 1, 1]` broadcast over `[a, b, c]` -/

theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-! ## A sum along the lanes of a matrix -/

/-- The index a one-axis reduction of a matrix along axis 1 inserts the coordinate into. -/
theorem lift_axis1 {a b : ℕ} (h : (⟨2, ![a, b]⟩ : Shape).Reduces [1] ⟨1, ![a]⟩) (r : Fin a) (k : Fin b) :
    h.lift (ix1 r) k = ix2 r k := by
  funext ax; apply Fin.ext
  match ax with
  | ⟨0, _⟩ => rfl
  | ⟨1, _⟩ => rfl

/-- A `vector.multi_reduction <add>` of an `[a, b]` vector along axis 1, at row `r`, is the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-! ## A plain matrix product into the zero accumulator -/

/-- `[m, k] × [k, n]` into the zero splat, at `(i, j)`: the sum over the contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (i : Fin m) (j : Fin n) :
    matmul (DotDims.plain m k n) prec A B (constant ⟨2, ![m, n]⟩ .f32 0x00000000#32) (ix2 i j)
      = ∑ c : Fin k, A (ix2 i c) * B (ix2 c j) := by
  show FloatOps.matmul _ prec A B _ (ix2 i j) = _
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 i j) ((contrEquiv1 _ k rfl rfl).symm c) = ix2 i c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 i j) ((contrEquiv1 _ k rfl rfl).symm c) = ix2 c j := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.ReadAt

end
-- ==== Proof.LibColumnBroadcast.lean ====
/-
  A column broadcast along the lanes, read at an index.

  A `[a, 1]` array broadcast to `[a, b]` holds, in every lane of row `p`, the column's entry of row `p`. Shape-generic
  in `a` and `b` and in the element type; the companion of the library's one-row form (`[1, b]` to `[a, b]`).
-/
import Idealize.ShloMosaic.Lib.Pipeline.Value
import Idealize.ShloMosaic.Lib.ValueIdx

namespace Cert.LibColumnBroadcast

open Idealize.ShloMosaic Idealize.ShloMosaic.ValueIdx

/-- A column `[a, 1]` broadcast along the lanes to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.GruKernelBlock.lean ====
/-
  One grid point of the kernel: the stored block, read at row `r` and lane `q`, is the gated recurrent update of row
  `r` of the blocks the point loads.

  The body forms the cell's input `e + (δ · ω + β)` (a column and two rows broadcast over the block), multiplies it and the
  previous state by the two 64×192 weight blocks into zero accumulators — each entry the sum over the 64 contracted
  coordinates of the products —, adds the bias rows, cuts each 192-lane result into its three bands of 64 lanes, and
  combines the bands lane by lane. A change of float format is the identity on the extended reals.
-/
import proofs.«118520_j73246372266146_1_alg».proof.Proof.Gen.KernelIdeal.Skeleton
import proofs.«118520_j73246372266146_1_alg».proof.Proof.GruSpec
import proofs.«118520_j73246372266146_1_alg».proof.Proof.LibReadAt
import proofs.«118520_j73246372266146_1_alg».proof.Proof.LibColumnBroadcast
import Idealize.ShloMosaic.Lib.ValueLayout

noncomputable section

open scoped BigOperators

namespace Cert.KernelIdeal.GruBlock

open Cert.KernelIdeal Cert.KernelIdeal.Gen Idealize.ShloMosaic Idealize.ShloMosaic.ValueIdx Cert.GruSpec

variable [Cert.KernelIdeal.Facts₀]

/-- The block's matrix product into the zero accumulator, at row `r` and lane `j`: the sum over the contracted coordinate. -/
theorem product_apply (A : FVec Ideal S4096x64 .bf16) (B : FVec Ideal S64x192 .bf16) (r : Fin 4096) (j : Fin 192) :
    matmul dot_S4096x64_S64x192_S4096x192_1_0_0_1_n_n none A B (constant S4096x192 .f32 0x00000000#32) (ix2 r j)
      = ∑ c : Fin 64, A (ix2 r c) * B (ix2 c j) :=
  Cert.ReadAt.matmul_plain_zero_apply (m := 4096) (k := 64) (n := 192) none A B r j

/-- The cell's input at row `r`, coordinate `k`: the embedding plus the time difference times the time weight plus the time bias. -/
theorem input_apply (x0 : FVec Ideal S4096x64 .f32) (x2 : FVec Ideal S4096x1 .f32) (x3 x4 : FVec Ideal S1x64 .f32)
    (r : Fin 4096) (k : Fin 64) :
    addf x0 (addf (mulf (broadcastTo S4096x64 x2 broadcasts_S4096x1_S4096x64)
        (broadcastTo S4096x64 x3 broadcasts_S1x64_S4096x64))
      (broadcastTo S4096x64 x4 broadcasts_S1x64_S4096x64)) (ix2 r k)
      = x0 (ix2 r k) + (x2 (ix2 r (0 : Fin 1)) * x3 (ix2 (0 : Fin 1) k) + x4 (ix2 (0 : Fin 1) k)) := by
  rw [addf_apply, addf_apply, mulf_apply,
    Cert.LibColumnBroadcast.broadcastTo_column_apply, broadcastTo_1b_ab_apply, broadcastTo_1b_ab_apply]

/-- The input-side affine map of the block at row `r`, lane `j`. -/
theorem pay3_apply (x0 : FVec Ideal S4096x64 .f32) (x2 : FVec Ideal S4096x1 .f32) (x3 x4 : FVec Ideal S1x64 .f32)
    (x5 : FVec Ideal S64x192 .f32) (x7 : FVec Ideal S1x192 .f32) (r : Fin 4096) (j : Fin 192) :
    k0_pay3 (F := Ideal) x0 x2 x3 x4 x5 x7 (ix2 r j) = gateIn x0 x2 x3 x4 x5 x7 r j := by
  unfold k0_pay3 gateIn
  simp only [shapeCast_self]
  rw [addf_apply, product_apply, broadcastTo_1b_ab_apply]
  refine congrArg₂ (· + ·) (Finset.sum_congr rfl fun k _ => ?_) rfl
  rw [truncf_apply, truncf_apply, input_apply]

/-- The state-side affine map of the block at row `r`, lane `j`. -/
theorem pay4_apply (x1 : FVec Ideal S4096x64 .f32) (x6 : FVec Ideal S64x192 .f32) (x8 : FVec Ideal S1x192 .f32)
    (r : Fin 4096) (j : Fin 192) :
    k0_pay4 (F := Ideal) x1 x6 x8 (ix2 r j) = gateHid x1 x6 x8 r j := by
  unfold k0_pay4 k0_pay2 gateHid
  dsimp only
  rw [addf_apply, product_apply, shapeCast_self, shapeCast_self, shapeCast_self, broadcastTo_1b_ab_apply]
  refine congrArg₂ (· + ·) (Finset.sum_congr rfl fun k _ => ?_) rfl
  rw [truncf_apply, truncf_apply]

variable (x0 x1 : FVec Ideal S4096x64 .f32) (x2 : FVec Ideal S4096x1 .f32) (x3 x4 : FVec Ideal S1x64 .f32)
  (x5 x6 : FVec Ideal S64x192 .f32) (x7 x8 : FVec Ideal S1x192 .f32) (r : Fin 4096) (q : Fin 64)

/-- The update band of the input-side map. -/
theorem pay5_apply : k0_pay5 (F := Ideal) x0 x2 x3 x4 x5 x7 (ix2 r q) = gateIn x0 x2 x3 x4 x5 x7 r (mid q) := by
  unfold k0_pay5
  exact (slice2_axis1_apply 64 _ slices_S4096x192_o0_64_S4096x64 r q (mid q) rfl).trans (pay3_apply x0 x2 x3 x4 x5 x7 r (mid q))

/-- The candidate band of the input-side map. -/
theorem pay6_apply : k0_pay6 (F := Ideal) x0 x2 x3 x4 x5 x7 (ix2 r q) = gateIn x0 x2 x3 x4 x5 x7 r (hi q) := by
  unfold k0_pay6
  exact (slice2_axis1_apply 128 _ slices_S4096x192_o0_128_S4096x64 r q (hi q) rfl).trans (pay3_apply x0 x2 x3 x4 x5 x7 r (hi q))

/-- The update band of the state-side map. -/
theorem pay7_apply : k0_pay7 (F := Ideal) x1 x6 x8 (ix2 r q) = gateHid x1 x6 x8 r (mid q) := by
  unfold k0_pay7
  exact (slice2_axis1_apply 64 _ slices_S4096x192_o0_64_S4096x64 r q (mid q) rfl).trans (pay4_apply x1 x6 x8 r (mid q))

/-- The candidate band of the state-side map. -/
theorem pay8_apply : k0_pay8 (F := Ideal) x1 x6 x8 (ix2 r q) = gateHid x1 x6 x8 r (hi q) := by
  unfold k0_pay8
  exact (slice2_axis1_apply 128 _ slices_S4096x192_o0_128_S4096x64 r q (hi q) rfl).trans (pay4_apply x1 x6 x8 r (hi q))

/-- The reset bands of the two maps, added. -/
theorem pay9_apply : k0_pay9 (F := Ideal) x0 x1 x2 x3 x4 x5 x6 x7 x8 (ix2 r q)
    = gateIn x0 x2 x3 x4 x5 x7 r (lo q) + gateHid x1 x6 x8 r (lo q) := by
  unfold k0_pay9
  rw [addf_apply]
  exact congrArg₂ (· + ·)
    ((slice2_axis1_apply 0 _ slices_S4096x192_o0_0_S4096x64 r q (lo q) (Nat.zero_add _).symm).trans (pay3_apply x0 x2 x3 x4 x5 x7 r (lo q)))
    ((slice2_axis1_apply 0 _ slices_S4096x192_o0_0_S4096x64 r q (lo q) (Nat.zero_add _).symm).trans (pay4_apply x1 x6 x8 r (lo q)))

/-- The bands combined, at any index: pointwise operations only. -/
theorem pay1_apply (v2 v33 v34 v36 v37 v38 : FVec Ideal S4096x64 .f32) (i : S4096x64.Idx) :
    k0_pay1 (F := Ideal) v2 v33 v34 v36 v37 v38 i
      = (one - Ideal.logistic (v33 i + v36 i)) * Ideal.tanh (v34 i + Ideal.logistic (v38 i) * v37 i)
        + Ideal.logistic (v33 i + v36 i) * v2 i := rfl

/-- The block a grid point stores, at row `r` and lane `q`: the cell update of row `r` of the loaded blocks. -/
theorem stored_apply :
    k0_pay1 (F := Ideal) (k0_pay2 (F := Ideal) x1) (k0_pay5 (F := Ideal) x0 x2 x3 x4 x5 x7) (k0_pay6 (F := Ideal) x0 x2 x3 x4 x5 x7) (k0_pay7 (F := Ideal) x1 x6 x8) (k0_pay8 (F := Ideal) x1 x6 x8)
        (k0_pay9 (F := Ideal) x0 x1 x2 x3 x4 x5 x6 x7 x8) (ix2 r q)
      = cell (gateIn x0 x2 x3 x4 x5 x7 r) (gateHid x1 x6 x8 r) (x1 (ix2 r q)) q := by
  rw [pay1_apply, pay5_apply, pay6_apply, pay7_apply, pay8_apply, pay9_apply]
  unfold k0_pay2 cell
  rw [shapeCast_self]

end Cert.KernelIdeal.GruBlock

end
-- ==== Proof.GruKernelArray.lean ====
/-
  From the blocks to the array: after the 128 grid points, the kernel's output array holds, at every row and lane, the
  gated recurrent update of the arrays the region was launched on.

  Grid point `t` loads rows `4096·t … 4096·t + 4095` of the embeddings, of the gathered states and of the column of time
  differences, and the whole of the six small arrays; it writes back rows `4096·t …` of the output. A block's element at
  coordinate `y` sits at block index × block size + `y` on each axis. The 128 blocks of 4096 rows cover the 524288 rows:
  row `ρ` is in the block of point `ρ / 4096`.
-/
import proofs.«118520_j73246372266146_1_alg».proof.Proof.Gen.KernelIdeal.Frame
import proofs.«118520_j73246372266146_1_alg».proof.Proof.GruKernelBlock
import Idealize.ShloMosaic.Lib.Pipeline.Value

set_option maxRecDepth 16384

noncomputable section

namespace Cert.KernelIdeal.GruArray

open Cert.KernelIdeal Cert.KernelIdeal.Gen Idealize.ShloMosaic Idealize.ShloMosaic.TcCoe Idealize.SL.Sem
open Idealize.ShloMosaic.ValueIdx Cert.GruSpec
open Idealize.ShloMosaic.Pipeline (Dat)

variable (m : (ℓ : Loc nD τ sig) → Buf (Elt Ideal) ℓ)

theorem origin_zero : (![0, 0] : Fin 2 → Nat) = fun _ => 0 := funext fun a => by fin_cases a <;> rfl

/-- The printed index maps over the grid: the three row-blocked inputs and the output move with the point, the six small
    arrays stay at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `r` of point `t`'s block is row `4096·t + r` of the batch. -/
def row (t : Fin cfg0.N) (r : Fin 4096) : Fin 524288 :=
  ⟨t.val * 4096 + r.val, by have hN : grid0.N = 128 := N_0; have ht : t.val < grid0.N := t.isLt; have := r.isLt; omega⟩

/-- The array the output window ends at: the update of the arrays as the region finds them. -/
def updated (c : Dev nD) : Buf (Elt Ideal) ((c : Thread nD τ).loc main_v21) :=
  update (V m c main_arg1) (V m c main_v6) (V m c main_v15) (V m c main_arg5) (V m c main_v16) (V m c main_v17)
    (V m c main_v18) (V m c main_v19) (V m c main_v20)

/-! ## Each input block read where the output's rows say -/

theorem blk0 (c : Dev nD) (t : Fin cfg0.N) (r : Fin 4096) (k : Fin 64) :
    (iblk m c 0 t : FVec Ideal S4096x64 .f32) (ix2 r k) = (V m c main_arg1 : FVec Ideal S524288x64 .f32) (ix2 (row t r) k) := by
  obtain ⟨e00, e01, -⟩ := index_facts t
  have h : ((cfg0.win 0).blk t).view.emb (ix2 r k) = ix2 (row t r) k := by
    funext a; apply Fin.ext
    match a with
    | ⟨0, _⟩ => show win0_0.index t (0 : Fin 2) * 4096 + 1 * r.val = t.val * 4096 + r.val; omega
    | ⟨1, _⟩ => show win0_0.index t (1 : Fin 2) * 64 + 1 * k.val = k.val; omega
  show V m c main_arg1 (((cfg0.win 0).blk t).view.emb (ix2 r k)) = V m c main_arg1 (ix2 (row t r) k)
  rw [h]

theorem blk1 (c : Dev nD) (t : Fin cfg0.N) (r : Fin 4096) (k : Fin 64) :
    (iblk m c 1 t : FVec Ideal S4096x64 .f32) (ix2 r k) = (V m c main_v6 : FVec Ideal S524288x64 .f32) (ix2 (row t r) k) := by
  obtain ⟨-, -, e10, e11, -⟩ := index_facts t
  have h : ((cfg0.win 1).blk t).view.emb (ix2 r k) = ix2 (row t r) k := by
    funext a; apply Fin.ext
    match a with
    | ⟨0, _⟩ => show win0_1.index t (0 : Fin 2) * 4096 + 1 * r.val = t.val * 4096 + r.val; omega
    | ⟨1, _⟩ => show win0_1.index t (1 : Fin 2) * 64 + 1 * k.val = k.val; omega
  show V m c main_v6 (((cfg0.win 1).blk t).view.emb (ix2 r k)) = V m c main_v6 (ix2 (row t r) k)
  rw [h]

theorem blk2 (c : Dev nD) (t : Fin cfg0.N) (r : Fin 4096) :
    (iblk m c 2 t : FVec Ideal S4096x1 .f32) (ix2 r (0 : Fin 1))
      = (V m c main_v15 : FVec Ideal S524288x1 .f32) (ix2 (row t r) (0 : Fin 1)) := by
  obtain ⟨-, -, -, -, e20, e21, -⟩ := index_facts t
  have h : ((cfg0.win 2).blk t).view.emb (ix2 r (0 : Fin 1)) = ix2 (row t r) (0 : Fin 1) := by
    funext a; apply Fin.ext
    match a with
    | ⟨0, _⟩ => show win0_2.index t (0 : Fin 2) * 4096 + 1 * r.val = t.val * 4096 + r.val; omega
    | ⟨1, _⟩ => show win0_2.index t (1 : Fin 2) * 1 + 1 * 0 = 0; omega
  show V m c main_v15 (((cfg0.win 2).blk t).view.emb (ix2 r (0 : Fin 1))) = V m c main_v15 (ix2 (row t r) (0 : Fin 1))
  rw [h]

theorem blk3 (c : Dev nD) (t : Fin cfg0.N) (k : Fin 64) :
    (iblk m c 3 t : FVec Ideal S1x64 .f32) (ix2 (0 : Fin 1) k) = (V m c main_arg5 : FVec Ideal S1x64 .f32) (ix2 (0 : Fin 1) k) := by
  obtain ⟨-, -, -, -, -, -, e30, e31, -⟩ := index_facts t
  have h : ((cfg0.win 3).blk t).view.emb (ix2 (0 : Fin 1) k) = ix2 (0 : Fin 1) k := by
    funext a; apply Fin.ext
    match a with
    | ⟨0, _⟩ => show win0_3.index t (0 : Fin 2) * 1 + 1 * 0 = 0; omega
    | ⟨1, _⟩ => show win0_3.index t (1 : Fin 2) * 64 + 1 * k.val = k.val; omega
  show V m c main_arg5 (((cfg0.win 3).blk t).view.emb (ix2 (0 : Fin 1) k)) = V m c main_arg5 (ix2 (0 : Fin 1) k)
  rw [h]

theorem blk4 (c : Dev nD) (t : Fin cfg0.N) (k : Fin 64) :
    (iblk m c 4 t : FVec Ideal S1x64 .f32) (ix2 (0 : Fin 1) k) = (V m c main_v16 : FVec Ideal S1x64 .f32) (ix2 (0 : Fin 1) k) := by
  obtain ⟨-, -, -, -, -, -, -, -, e40, e41, -⟩ := index_facts t
  have h : ((cfg0.win 4).blk t).view.emb (ix2 (0 : Fin 1) k) = ix2 (0 : Fin 1) k := by
    funext a; apply Fin.ext
    match a with
    | ⟨0, _⟩ => show win0_4.index t (0 : Fin 2) * 1 + 1 * 0 = 0; omega
    | ⟨1, _⟩ => show win0_4.index t (1 : Fin 2) * 64 + 1 * k.val = k.val; omega
  show V m c main_v16 (((cfg0.win 4).blk t).view.emb (ix2 (0 : Fin 1) k)) = V m c main_v16 (ix2 (0 : Fin 1) k)
  rw [h]

theorem blk5 (c : Dev nD) (t : Fin cfg0.N) (k : Fin 64) (j : Fin 192) :
    (iblk m c 5 t : FVec Ideal S64x192 .f32) (ix2 k j) = (V m c main_v17 : FVec Ideal S64x192 .f32) (ix2 k j) := by
  obtain ⟨-, -, -, -, -, -, -, -, -, -, e50, e51, -⟩ := index_facts t
  have h : ((cfg0.win 5).blk t).view.emb (ix2 k j) = ix2 k j := by
    funext a; apply Fin.ext
    match a with
    | ⟨0, _⟩ => show win0_5.index t (0 : Fin 2) * 64 + 1 * k.val = k.val; omega
    | ⟨1, _⟩ => show win0_5.index t (1 : Fin 2) * 192 + 1 * j.val = j.val; omega
  show V m c main_v17 (((cfg0.win 5).blk t).view.emb (ix2 k j)) = V m c main_v17 (ix2 k j)
  rw [h]

theorem blk6 (c : Dev nD) (t : Fin cfg0.N) (k : Fin 64) (j : Fin 192) :
    (iblk m c 6 t : FVec Ideal S64x192 .f32) (ix2 k j) = (V m c main_v18 : FVec Ideal S64x192 .f32) (ix2 k j) := by
  obtain ⟨-, -, -, -, -, -, -, -, -, -, -, -, e60, e61, -⟩ := index_facts t
  have h : ((cfg0.win 6).blk t).view.emb (ix2 k j) = ix2 k j := by
    funext a; apply Fin.ext
    match a with
    | ⟨0, _⟩ => show win0_6.index t (0 : Fin 2) * 64 + 1 * k.val = k.val; omega
    | ⟨1, _⟩ => show win0_6.index t (1 : Fin 2) * 192 + 1 * j.val = j.val; omega
  show V m c main_v18 (((cfg0.win 6).blk t).view.emb (ix2 k j)) = V m c main_v18 (ix2 k j)
  rw [h]

theorem blk7 (c : Dev nD) (t : Fin cfg0.N) (j : Fin 192) :
    (iblk m c 7 t : FVec Ideal S1x192 .f32) (ix2 (0 : Fin 1) j) = (V m c main_v19 : FVec Ideal S1x192 .f32) (ix2 (0 : Fin 1) j) := by
  obtain ⟨-, -, -, -, -, -, -, -, -, -, -, -, -, -, e70, e71, -⟩ := index_facts t
  have h : ((cfg0.win 7).blk t).view.emb (ix2 (0 : Fin 1) j) = ix2 (0 : Fin 1) j := by
    funext a; apply Fin.ext
    match a with
    | ⟨0, _⟩ => show win0_7.index t (0 : Fin 2) * 1 + 1 * 0 = 0; omega
    | ⟨1, _⟩ => show win0_7.index t (1 : Fin 2) * 192 + 1 * j.val = j.val; omega
  show V m c main_v19 (((cfg0.win 7).blk t).view.emb (ix2 (0 : Fin 1) j)) = V m c main_v19 (ix2 (0 : Fin 1) j)
  rw [h]

theorem blk8 (c : Dev nD) (t : Fin cfg0.N) (j : Fin 192) :
    (iblk m c 8 t : FVec Ideal S1x192 .f32) (ix2 (0 : Fin 1) j) = (V m c main_v20 : FVec Ideal S1x192 .f32) (ix2 (0 : Fin 1) j) := by
  obtain ⟨-, -, -, -, -, -, -, -, -, -, -, -, -, -, -, -, e80, e81, -⟩ := index_facts t
  have h : ((cfg0.win 8).blk t).view.emb (ix2 (0 : Fin 1) j) = ix2 (0 : Fin 1) j := by
    funext a; apply Fin.ext
    match a with
    | ⟨0, _⟩ => show win0_8.index t (0 : Fin 2) * 1 + 1 * 0 = 0; omega
    | ⟨1, _⟩ => show win0_8.index t (1 : Fin 2) * 192 + 1 * j.val = j.val; omega
  show V m c main_v20 (((cfg0.win 8).blk t).view.emb (ix2 (0 : Fin 1) j)) = V m c main_v20 (ix2 (0 : Fin 1) j)
  rw [h]

/-! ## What a point writes back -/

/-- Point `t` writes back block `t` of the updated array. -/
theorem flushed_eq (c : Dev nD) (t : Fin cfg0.N) :
    (dats m 0 c).flushed 9 t = ((cfg0.win 9).blk t).view.read (Elt Ideal) (updated m c) := by
  show (cfg0.win 9).cut (grid0.coords t) ((dats m 0 c).after 9 t) = _
  rw [after0_9]
  unfold out0_9
  rw [View.canon_unit_zero origin_zero]
  simp only [View.ld_unit_zero (S := S4096x64) origin_zero, View.ld_unit_zero (S := S4096x1) origin_zero,
    View.ld_unit_zero (S := S1x64) origin_zero, View.ld_unit_zero (S := S64x192) origin_zero,
    View.ld_unit_zero (S := S1x192) origin_zero]
  obtain ⟨-, -, -, -, -, -, -, -, -, -, -, -, -, -, -, -, -, -, e90, e91⟩ := index_facts t
  funext y
  obtain ⟨r, q, rfl⟩ : ∃ (r : Fin 4096) (q : Fin 64), y = ix2 r q := ⟨y 0, y 1, eq_ix2 y⟩
  have h : ((cfg0.win 9).blk t).view.emb (ix2 r q) = ix2 (row t r) q := by
    funext a; apply Fin.ext
    match a with
    | ⟨0, _⟩ => show win0_9.index t (0 : Fin 2) * 4096 + 1 * r.val = t.val * 4096 + r.val; omega
    | ⟨1, _⟩ => show win0_9.index t (1 : Fin 2) * 64 + 1 * q.val = q.val; omega
  show k0_pay1 (F := Ideal) (k0_pay2 (iblk m c 1 t))
      (k0_pay5 (iblk m c 0 t) (iblk m c 2 t) (iblk m c 3 t) (iblk m c 4 t) (iblk m c 5 t) (iblk m c 7 t))
      (k0_pay6 (iblk m c 0 t) (iblk m c 2 t) (iblk m c 3 t) (iblk m c 4 t) (iblk m c 5 t) (iblk m c 7 t))
      (k0_pay7 (iblk m c 1 t) (iblk m c 6 t) (iblk m c 8 t)) (k0_pay8 (iblk m c 1 t) (iblk m c 6 t) (iblk m c 8 t))
      (k0_pay9 (iblk m c 0 t) (iblk m c 1 t) (iblk m c 2 t) (iblk m c 3 t) (iblk m c 4 t) (iblk m c 5 t) (iblk m c 6 t)
        (iblk m c 7 t) (iblk m c 8 t)) (ix2 r q)
    = updated m c (((cfg0.win 9).blk t).view.emb (ix2 r q))
  rw [h]
  refine (Cert.KernelIdeal.GruBlock.stored_apply (iblk m c 0 t) (iblk m c 1 t) (iblk m c 2 t) (iblk m c 3 t) (iblk m c 4 t)
    (iblk m c 5 t) (iblk m c 6 t) (iblk m c 7 t) (iblk m c 8 t) r q).trans ?_
  unfold updated
  rw [update_apply]
  exact cell_congr q
    (fun j => gateIn_congr (fun k => blk0 m c t r k) (blk2 m c t r) (fun k => blk3 m c t k) (fun k => blk4 m c t k)
      (fun k j => blk5 m c t k j) (fun j => blk7 m c t j) j)
    (fun j => gateHid_congr (fun k => blk1 m c t r k) (fun k j => blk6 m c t k j) (fun j => blk8 m c t j) j)
    (blk1 m c t r q)

/-! ## The blocks cover the array -/

/-- An index of the output array is in point `t`'s block iff each coordinate is in the block's range on its axis. -/
theorem mem_blk (t : Fin cfg0.N) (i : S524288x64.Idx) :
    i ∈ ((cfg0.win 9).blk t).view.set ↔ ∀ a : Fin 2, win0_9.index t a * S4096x64.size a ≤ (i a).val
      ∧ (i a).val < win0_9.index t a * S4096x64.size a + S4096x64.size a := by
  show i ∈ ((View.whole main_v21).slice (win0_9.rect t)).set ↔ _
  rw [View.set_slice_whole, Rect.mem_set_unit]
  exact Iff.rfl

/-- Every index of the output array is in the block of the point its row falls to. -/
theorem covered (i : S524288x64.Idx) :
    ∃ t : Fin cfg0.N, (cfg0.win 9).flush t = true ∧ i ∈ ((cfg0.win 9).blk t).view.set := by
  have hi0 : (i 0).val < 524288 := (i 0).isLt
  have hi1 : (i 1).val < 64 := (i 1).isLt
  have hN : grid0.N = 128 := N_0
  have ht : (i 0).val / 4096 < grid0.N := by omega
  obtain ⟨-, -, -, -, -, -, -, -, -, -, -, -, -, -, -, -, -, -, e90, e91⟩ := index_facts ⟨(i 0).val / 4096, ht⟩
  refine ⟨⟨(i 0).val / 4096, ht⟩, flush0_9 _, ?_⟩
  rw [mem_blk]
  intro a
  match a with
  | ⟨0, _⟩ =>
    show win0_9.index ⟨(i 0).val / 4096, ht⟩ (0 : Fin 2) * 4096 ≤ (i 0).val
      ∧ (i 0).val < win0_9.index ⟨(i 0).val / 4096, ht⟩ (0 : Fin 2) * 4096 + 4096
    rw [e90]
    show (i 0).val / 4096 * 4096 ≤ (i 0).val ∧ (i 0).val < (i 0).val / 4096 * 4096 + 4096
    omega
  | ⟨1, _⟩ =>
    show win0_9.index ⟨(i 0).val / 4096, ht⟩ (1 : Fin 2) * 64 ≤ (i 1).val
      ∧ (i 1).val < win0_9.index ⟨(i 0).val / 4096, ht⟩ (1 : Fin 2) * 64 + 64
    omega

/-- THE OUTPUT ARRAY after the region: the update of the arrays the region was launched on. -/
theorem final (c : Dev nD) : (dats m 0 c).arrAt 9 cfg0.N = updated m c :=
  (dats m 0 c).arrAt_eq_of_cover 9 (updated m c) (fun t _ => flushed_eq m c t) covered

end Cert.KernelIdeal.GruArray

end
-- ==== Proof.GruKernelHost.lean ====
/-
  The host lines of the kernel's program around the region, as values.

  Before the region the program gathers the previous states and the last update times at the node indices (a negative
  index wrapped by the table's length), subtracts the gathered times from the event times, and lays the small arrays out
  as rows and transposed matrices. These are the same operations, on the same arguments, that the reference applies, so
  each array is stated as the reference's own stage of the arguments. After the region the program scatters the updated
  states and the event times back into the tables at the same indices.
-/
import proofs.«118520_j73246372266146_1_alg».proof.Proof.Gen.KernelIdeal.Frame
import proofs.«118520_j73246372266146_1_alg».proof.Proof.Gen.ReferenceIdeal.Read
import Idealize.ShloMosaic.Lib.StableHlo.Run

set_option maxRecDepth 16384

noncomputable section

namespace Cert.KernelIdeal.GruHost

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## The arrays the region is launched on -/

/-- The gathered previous states. -/
theorem V_v6 (c : Dev nD) :
    V m c main_v6 = Cert.ReferenceIdeal.Read.val_main_v6 (F := Ideal) (m ((c : Thread nD τ).loc main_arg0)) (m ((c : Thread nD τ).loc main_arg3)) := by
  show StableHlo.after hostOps0 (fun b => m (c, b)) (Proc.devRef .tc main_v6) = _
  after_results
  rfl

set_option maxHeartbeats 2000000 in
/-- The column of time differences. -/
theorem V_v15 (c : Dev nD) :
    V m c main_v15 = Cert.ReferenceIdeal.Read.val_main_v15 (F := Ideal) (m ((c : Thread nD τ).loc main_arg0)) (m ((c : Thread nD τ).loc main_arg2)) (m ((c : Thread nD τ).loc main_arg4)) := by
  show StableHlo.after hostOps0 (fun b => m (c, b)) (Proc.devRef .tc main_v15) = _
  after_results_simp <;> rfl

/-- The time bias as a row. -/
theorem V_v16 (c : Dev nD) : V m c main_v16 = Cert.ReferenceIdeal.Read.val_main_v21 (F := Ideal) (m ((c : Thread nD τ).loc main_arg6)) := by
  show StableHlo.after hostOps0 (fun b => m (c, b)) (Proc.devRef .tc main_v16) = _
  after_results
  rfl

/-- The input-side weights, transposed. -/
theorem V_v17 (c : Dev nD) : V m c main_v17 = Cert.ReferenceIdeal.Read.val_main_v25 (F := Ideal) (m ((c : Thread nD τ).loc main_arg7)) := by
  show StableHlo.after hostOps0 (fun b => m (c, b)) (Proc.devRef .tc main_v17) = _
  after_results
  rfl

/-- The state-side weights, transposed. -/
theorem V_v18 (c : Dev nD) : V m c main_v18 = Cert.ReferenceIdeal.Read.val_main_v30 (F := Ideal) (m ((c : Thread nD τ).loc main_arg8)) := by
  show StableHlo.after hostOps0 (fun b => m (c, b)) (Proc.devRef .tc main_v18) = _
  after_results
  rfl

/-- The input-side bias as a row. -/
theorem V_v19 (c : Dev nD) : V m c main_v19 = Cert.ReferenceIdeal.Read.val_main_v27 (F := Ideal) (m ((c : Thread nD τ).loc main_arg9)) := by
  show StableHlo.after hostOps0 (fun b => m (c, b)) (Proc.devRef .tc main_v19) = _
  after_results
  rfl

/-- The state-side bias as a row. -/
theorem V_v20 (c : Dev nD) : V m c main_v20 = Cert.ReferenceIdeal.Read.val_main_v32 (F := Ideal) (m ((c : Thread nD τ).loc main_arg10)) := by
  show StableHlo.after hostOps0 (fun b => m (c, b)) (Proc.devRef .tc main_v20) = _
  after_results
  rfl

end Cert.KernelIdeal.GruHost

end
-- ==== Proof.GruKernelTail.lean ====
/-
  The host lines after the region, as values: the two tables with the batch scattered back in.

  After the region the program wraps the node indices as before and scatters, row by row, the updated states into the
  state table and the event times into the table of last update times. The lines read the region's output array as the
  region left it and every other array as it was launched; none of them writes an array of the region. The scatters are
  the reference's operations on the same indices, so each result is stated with the reference's own index stage.
-/
import proofs.«118520_j73246372266146_1_alg».proof.Proof.Gen.KernelIdeal.Frame
import proofs.«118520_j73246372266146_1_alg».proof.Proof.Gen.ReferenceIdeal.Read
import Idealize.ShloMosaic.Lib.StableHlo.Run

set_option maxRecDepth 16384

noncomputable section

namespace Cert.KernelIdeal.GruTail

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## What the lines after the region read -/

/-- The node indices: no array of the region, as launched. -/
theorem read_arg0 (c : Dev nD) : Pipeline.withArrays (cfgs 0).spec c (V0 m c) (fun w => (dats m 0 c).arrAt w (cfgs 0).N) (Proc.devRef .tc main_arg0) = (m ((c : Thread nD τ).loc main_arg0)) :=
  (Pipeline.withArrays_of_ne _ c (V0 m c) _ main_arg0 (by exact (by decide : ∀ w, Pipeline.arrRef spec0 w ≠ main_arg0))).trans
    (V_main_arg0 m c)

/-- The event times. -/
theorem read_arg2 (c : Dev nD) : Pipeline.withArrays (cfgs 0).spec c (V0 m c) (fun w => (dats m 0 c).arrAt w (cfgs 0).N) (Proc.devRef .tc main_arg2) = (m ((c : Thread nD τ).loc main_arg2)) :=
  (Pipeline.withArrays_of_ne _ c (V0 m c) _ main_arg2 (by exact (by decide : ∀ w, Pipeline.arrRef spec0 w ≠ main_arg2))).trans
    (V_main_arg2 m c)

/-- The state table. -/
theorem read_arg3 (c : Dev nD) : Pipeline.withArrays (cfgs 0).spec c (V0 m c) (fun w => (dats m 0 c).arrAt w (cfgs 0).N) (Proc.devRef .tc main_arg3) = (m ((c : Thread nD τ).loc main_arg3)) :=
  (Pipeline.withArrays_of_ne _ c (V0 m c) _ main_arg3 (by exact (by decide : ∀ w, Pipeline.arrRef spec0 w ≠ main_arg3))).trans
    (V_main_arg3 m c)

/-- The table of last update times. -/
theorem read_arg4 (c : Dev nD) : Pipeline.withArrays (cfgs 0).spec c (V0 m c) (fun w => (dats m 0 c).arrAt w (cfgs 0).N) (Proc.devRef .tc main_arg4) = (m ((c : Thread nD τ).loc main_arg4)) :=
  (Pipeline.withArrays_of_ne _ c (V0 m c) _ main_arg4 (by exact (by decide : ∀ w, Pipeline.arrRef spec0 w ≠ main_arg4))).trans
    (V_main_arg4 m c)

/-- The region's output array, as the region left it. -/
theorem read_out (c : Dev nD) : Pipeline.withArrays (cfgs 0).spec c (V0 m c) (fun w => (dats m 0 c).arrAt w (cfgs 0).N) (Proc.devRef .tc main_v21) = (dats m 0 c).arrAt 9 cfg0.N :=
  Pipeline.withArrays_arr spec0 launch0.win.arr_inj c _ _ 9

/-! ## The two scattered tables -/

set_option maxHeartbeats 2000000 in
/-- The state table with the region's output rows scattered in at the wrapped node indices. -/
theorem states_table (c : Dev nD) :
    Pipeline.afterTail₀ cfgs (dats m) 0 (V0 m) [hostOps1] c main_v28
      = Host.scatter Cert.ReferenceIdeal.scatter_S1000000x64_S524288x1_S524288x64_1_0_0_1 (fun _ b => b) (m ((c : Thread nD τ).loc main_arg3))
          (Cert.ReferenceIdeal.Read.val_main_v68 (F := Ideal) (m ((c : Thread nD τ).loc main_arg0))) ((dats m 0 c).arrAt 9 cfg0.N) := by
  unfold Pipeline.afterTail₀
  show StableHlo.after hostOps1 _ (Proc.devRef .tc main_v28) = _
  after_results
  rw [read_arg3 m c, read_arg0 m c, read_out m c]
  rfl

set_option maxHeartbeats 2000000 in
/-- The table of last update times with the event times scattered in at the wrapped node indices. -/
theorem times_table (c : Dev nD) :
    Pipeline.afterTail₀ cfgs (dats m) 0 (V0 m) [hostOps1] c main_v35
      = Cert.ReferenceIdeal.Read.val_main_v76 (F := Ideal) (m ((c : Thread nD τ).loc main_arg0)) (m ((c : Thread nD τ).loc main_arg2)) (m ((c : Thread nD τ).loc main_arg4)) := by
  unfold Pipeline.afterTail₀
  show StableHlo.after hostOps1 _ (Proc.devRef .tc main_v35) = _
  after_results
  rw [read_arg4 m c, read_arg0 m c, read_arg2 m c]
  rfl

end Cert.KernelIdeal.GruTail

end
-- ==== Proof.GruReference.lean ====
/-
  The reference program's updated state, read at row `p` and lane `q`, is the gated recurrent update of the arrays its
  host lines prepare: the gathered previous states, the column of time differences, the time weight row, the time bias
  row, the two transposed weight matrices and the two bias rows.

  Its two 192-lane sums are products contracted over the 64 coordinates plus a broadcast bias row; the three bands are
  unit-stride cuts along the lanes; the logistic function is spelled as the quotient of one by one plus the exponential
  of the negated argument, which is the logistic function on every extended real.
-/
import proofs.«118520_j73246372266146_1_alg».proof.Proof.Gen.ReferenceIdeal.Read
import proofs.«118520_j73246372266146_1_alg».proof.Proof.GruSpec

noncomputable section

open scoped BigOperators

namespace Cert.ReferenceIdeal.GruRef

open Cert.ReferenceIdeal Cert.ReferenceIdeal.Gen Cert.ReferenceIdeal.Read Idealize.ShloMosaic Idealize.ShloMosaic.ValueIdx Cert.GruSpec

variable (x0 : (⟨S524288, .i32⟩ : BufTy).Contents (Elt Ideal)) (x1 : (⟨S524288x64, .f32⟩ : BufTy).Contents (Elt Ideal)) (x2 : (⟨S524288, .f32⟩ : BufTy).Contents (Elt Ideal))
  (x3 : (⟨S1000000x64, .f32⟩ : BufTy).Contents (Elt Ideal)) (x4 : (⟨S1000000, .f32⟩ : BufTy).Contents (Elt Ideal)) (x5 : (⟨S1x64, .f32⟩ : BufTy).Contents (Elt Ideal)) (x6 : (⟨S64, .f32⟩ : BufTy).Contents (Elt Ideal))
  (x7 x8 : (⟨S192x64, .f32⟩ : BufTy).Contents (Elt Ideal)) (x9 x10 : (⟨S192, .f32⟩ : BufTy).Contents (Elt Ideal))

/-- The input-side sum plus its bias row, at row `p` and lane `j`. -/
theorem in_apply (p : Fin 524288) (j : Fin 192) :
    val_main_v29 (F := Ideal) x0 x1 x2 x4 x5 x6 x7 x9 (ix2 p j)
      = gateIn x1 (val_main_v15 (F := Ideal) x0 x2 x4) x5 (val_main_v21 (F := Ideal) x6) (val_main_v25 (F := Ideal) x7)
          (val_main_v27 (F := Ideal) x9) p j := by
  have e28 : idx_main_v28 (ix2 p j) = ix2 (0 : Fin 1) j :=
    funext fun a => Fin.ext (by match a with | ⟨0, _⟩ => rfl | ⟨1, _⟩ => rfl)
  rw [val_main_v29_apply, val_main_v26_apply, val_main_v28_apply, e28]
  unfold gateIn
  refine congrArg₂ (· + ·) (Finset.sum_congr rfl fun k _ => ?_) rfl
  have el : lidx_main_v26 (ix2 p j) k = ix2 p k :=
    funext fun a => Fin.ext (by match a with | ⟨0, _⟩ => rfl | ⟨1, _⟩ => rfl)
  have er : ridx_main_v26 (ix2 p j) k = ix2 k j :=
    funext fun a => Fin.ext (by match a with | ⟨0, _⟩ => rfl | ⟨1, _⟩ => rfl)
  have e22 : idx_main_v22 (ix2 p k) = ix2 (0 : Fin 1) k :=
    funext fun a => Fin.ext (by match a with | ⟨0, _⟩ => rfl | ⟨1, _⟩ => rfl)
  have e18 : idx_main_v18 (ix2 p k) = ix2 p (0 : Fin 1) :=
    funext fun a => Fin.ext (by match a with | ⟨0, _⟩ => rfl | ⟨1, _⟩ => rfl)
  have e16 : idx_main_v16 (idx_main_v17 (idx_main_v19 (ix2 p k))) = ix2 (0 : Fin 1) k :=
    funext fun a => Fin.ext (by match a with | ⟨0, _⟩ => rfl | ⟨1, _⟩ => exact Nat.mod_eq_of_lt k.isLt)
  rw [el, er, val_main_v24_apply, val_main_v23_apply, val_main_v20_apply, val_main_v22_apply, val_main_v18_apply,
    val_main_v19_apply, val_main_v17_apply, val_main_v16_apply, e22, e18, e16]
  rfl

/-- The state-side sum plus its bias row, at row `p` and lane `j`. -/
theorem hid_apply (p : Fin 524288) (j : Fin 192) :
    val_main_v34 (F := Ideal) x0 x3 x8 x10 (ix2 p j)
      = gateHid (val_main_v6 (F := Ideal) x0 x3) (val_main_v30 (F := Ideal) x8) (val_main_v32 (F := Ideal) x10) p j := by
  have e33 : idx_main_v33 (ix2 p j) = ix2 (0 : Fin 1) j :=
    funext fun a => Fin.ext (by match a with | ⟨0, _⟩ => rfl | ⟨1, _⟩ => rfl)
  rw [val_main_v34_apply, val_main_v31_apply, val_main_v33_apply, e33]
  unfold gateHid
  refine congrArg₂ (· + ·) (Finset.sum_congr rfl fun k _ => ?_) rfl
  have el : lidx_main_v31 (ix2 p j) k = ix2 p k :=
    funext fun a => Fin.ext (by match a with | ⟨0, _⟩ => rfl | ⟨1, _⟩ => rfl)
  have er : ridx_main_v31 (ix2 p j) k = ix2 k j :=
    funext fun a => Fin.ext (by match a with | ⟨0, _⟩ => rfl | ⟨1, _⟩ => rfl)
  rw [el, er]

/-- The three bands of the two sums combined, at row `p` and lane `q`. -/
theorem out_apply (p : Fin 524288) (q : Fin 64) :
    val_main_v62 (F := Ideal) x0 x1 x2 x3 x4 x5 x6 x7 x8 x9 x10 (ix2 p q)
      = cell (fun j => val_main_v29 (F := Ideal) x0 x1 x2 x4 x5 x6 x7 x9 (ix2 p j))
          (fun j => val_main_v34 (F := Ideal) x0 x3 x8 x10 (ix2 p j)) (val_main_v6 (F := Ideal) x0 x3 (ix2 p q)) q := by
  have e35 : idx_main_v35 (ix2 p q) = ix2 p (lo q) :=
    funext fun a => Fin.ext (by match a with | ⟨0, _⟩ => rfl | ⟨1, _⟩ => rfl)
  have e36 : idx_main_v36 (ix2 p q) = ix2 p (mid q) :=
    funext fun a => Fin.ext (by match a with | ⟨0, _⟩ => rfl | ⟨1, _⟩ => rfl)
  have e37 : idx_main_v37 (ix2 p q) = ix2 p (hi q) :=
    funext fun a => Fin.ext (by match a with | ⟨0, _⟩ => rfl | ⟨1, _⟩ => rfl)
  have e38 : idx_main_v38 (ix2 p q) = ix2 p (lo q) :=
    funext fun a => Fin.ext (by match a with | ⟨0, _⟩ => rfl | ⟨1, _⟩ => rfl)
  have e39 : idx_main_v39 (ix2 p q) = ix2 p (mid q) :=
    funext fun a => Fin.ext (by match a with | ⟨0, _⟩ => rfl | ⟨1, _⟩ => rfl)
  have e40 : idx_main_v40 (ix2 p q) = ix2 p (hi q) :=
    funext fun a => Fin.ext (by match a with | ⟨0, _⟩ => rfl | ⟨1, _⟩ => rfl)
  unfold cell
  dsimp only
  rw [val_main_v62_apply, val_main_v60_apply, val_main_v61_apply, val_main_v59_apply, val_main_v58_apply,
    val_main_cst_6_apply, val_main_v57_apply, val_main_v56_apply, val_main_v55_apply, val_main_v54_apply,
    val_main_v53_apply, val_main_cst_5_apply, val_main_v52_apply, val_main_v51_apply, val_main_cst_4_apply,
    val_main_v50_apply, val_main_v49_apply, val_main_v48_apply, val_main_v47_apply, val_main_v46_apply,
    val_main_cst_3_apply, val_main_v45_apply, val_main_v44_apply, val_main_cst_apply, val_main_v43_apply,
    val_main_v42_apply, val_main_v41_apply, val_main_v35_apply, val_main_v36_apply, val_main_v37_apply,
    val_main_v38_apply, val_main_v39_apply, val_main_v40_apply, e35, e36, e37, e38, e39, e40]
  simp only [Ideal.addf_def, Ideal.subf_def, Ideal.mulf_def, Ideal.hostDivf_def, Ideal.hostUnary_exp_def,
    Ideal.hostUnary_tanh_def, Ideal.hostNegf_def, Ideal.negf_def, Ideal.ofBits_def]
  rw [logistic_spelled, logistic_spelled]

/-- The reference's updated state IS the gated recurrent update of the arrays its host lines prepare. -/
theorem updated_eq :
    val_main_v62 (F := Ideal) x0 x1 x2 x3 x4 x5 x6 x7 x8 x9 x10
      = update x1 (val_main_v6 (F := Ideal) x0 x3) (val_main_v15 (F := Ideal) x0 x2 x4) x5 (val_main_v21 (F := Ideal) x6)
          (val_main_v25 (F := Ideal) x7) (val_main_v30 (F := Ideal) x8) (val_main_v27 (F := Ideal) x9)
          (val_main_v32 (F := Ideal) x10) := by
  funext i
  obtain ⟨p, q, rfl⟩ : ∃ (p : Fin 524288) (q : Fin 64), i = ix2 p q := ⟨i 0, i 1, eq_ix2 i⟩
  rw [out_apply, update_apply]
  exact congrArg₂ (fun gi gh => cell gi gh _ q) (funext fun j => in_apply x0 x1 x2 x4 x5 x6 x7 x9 p j)
    (funext fun j => hid_apply x0 x3 x8 x10 p j)

end Cert.ReferenceIdeal.GruRef

end
-- ==== Proof.GruKernelRun.lean ====
/-
  The kernel's program, run: every weakly fair execution terminates with the updated states, the state table and the
  table of last update times each at the reference's own function of the argument arrays, and the arguments unchanged.

  The region's output array is the gated recurrent update of the arrays the host lines before it prepare; those are the
  reference's stages of the arguments, and the reference's updated state is the same update of the same stages. The two
  tables are the reference's scatters of that array and of the event times.
-/
import proofs.«118520_j73246372266146_1_alg».proof.Proof.Gen.KernelIdeal.Frame
import proofs.«118520_j73246372266146_1_alg».proof.Proof.GruKernelArray
import proofs.«118520_j73246372266146_1_alg».proof.Proof.GruKernelHost
import proofs.«118520_j73246372266146_1_alg».proof.Proof.GruKernelTail
import proofs.«118520_j73246372266146_1_alg».proof.Proof.GruReference

set_option maxRecDepth 16384

noncomputable section

namespace Cert.KernelIdeal.GruRun

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The region's output array is the reference's updated-state stage of the argument arrays. -/
theorem updated_is_stage (c : Dev nD) :
    Cert.KernelIdeal.GruArray.updated m c = Cert.ReferenceIdeal.Read.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.KernelIdeal.GruArray.updated
  rw [V_main_arg1 m c, V_main_arg5 m c, Cert.KernelIdeal.GruHost.V_v6 m c, Cert.KernelIdeal.GruHost.V_v15 m c,
    Cert.KernelIdeal.GruHost.V_v16 m c, Cert.KernelIdeal.GruHost.V_v17 m c, Cert.KernelIdeal.GruHost.V_v18 m c,
    Cert.KernelIdeal.GruHost.V_v19 m c, Cert.KernelIdeal.GruHost.V_v20 m c]
  exact (Cert.ReferenceIdeal.GruRef.updated_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))).symm

/-- The run, read: the three results at the reference's stages of the arguments, the arguments unchanged. -/
theorem run : θ_run defs (onTc (τ := τ) (main (F := Ideal))) ⟨m, fun _ => 0, ρ⟩ fun r => ∀ c : Dev nD,
      r.2.mem ((c.tc : Thread nD τ).loc main_v21) = Cert.ReferenceIdeal.Read.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v28) = Cert.ReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v35) = Cert.ReferenceIdeal.Read.val_main_v76 (F := Ideal) (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨
      ((h c).1 9).trans ((Cert.KernelIdeal.GruArray.final m c).trans (updated_is_stage m c)),
      ((h c).2 main_v28 (Pipeline.mem_restRefs_of main_v28 (by decide) (by decide))).trans
        ((Cert.KernelIdeal.GruTail.states_table m c).trans (by
          rw [Cert.KernelIdeal.GruArray.final m c, updated_is_stage m c]; rfl)),
      ((h c).2 main_v35 (Pipeline.mem_restRefs_of main_v35 (by decide) (by decide))).trans
        (Cert.KernelIdeal.GruTail.times_table m c),
      (((h c).2 main_arg0 (Pipeline.mem_restRefs_of main_arg0 (by decide) (by decide))).trans (W_main_arg0 m (dats m) c)),
      (((h c).1 0).trans (((dats m 0 c).arrAt_in 0 rfl _).trans ((A_eq m c 0).trans (V_main_arg1 m c)))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).1 3).trans (((dats m 0 c).arrAt_in 3 rfl _).trans ((A_eq m c 3).trans (V_main_arg5 m c)))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.KernelIdeal.GruRun

end
-- ==== Proof.lean ====
/-
  The kernel and its reference compute one function on the extended reals.

  Both programs gather, for each of the 524288 events, the previous state and the last update time of the event's node
  (a negative index wrapped by the table's length), form the time difference, and update the state by a gated recurrent
  cell whose input is the event's embedding plus a linear encoding of the time difference; then they scatter the updated
  states and the event times back into the two tables at the same indices. The kernel runs the cell on 128 blocks of 4096
  rows, with the matrix products on operands stored in a shorter float format and the logistic function as one
  operation; the reference runs it on the whole batch, with the logistic function spelled out. On the extended reals a
  change of float format is the identity, a product into a zero accumulator is the sum of the products, and the spelled
  logistic function is the logistic function; the remaining operations are the same, in the same order. So the updated
  states agree entry by entry (no finiteness is used), and the two tables, being the same scatters of equal arrays at
  equal indices, agree as well.

  The three frames: the kernel's two programs by their generated frame runs; the reference's by its generated run with
  the results dropped. The idealization rewrote no operation, so nothing is owed for it.
-/
import proofs.«118520_j73246372266146_1_alg».proof.Defs
import proofs.«118520_j73246372266146_1_alg».proof.Proof.Gen.Kernel
import proofs.«118520_j73246372266146_1_alg».proof.Proof.Gen.Kernel.Skeleton
import proofs.«118520_j73246372266146_1_alg».proof.Proof.Gen.Kernel.Launch
import proofs.«118520_j73246372266146_1_alg».proof.Proof.Gen.Kernel.Points
import proofs.«118520_j73246372266146_1_alg».proof.Proof.Gen.Kernel.Frame
import proofs.«118520_j73246372266146_1_alg».proof.Proof.Gen.KernelIdeal
import proofs.«118520_j73246372266146_1_alg».proof.Proof.Gen.KernelIdeal.Skeleton
import proofs.«118520_j73246372266146_1_alg».proof.Proof.Gen.KernelIdeal.Launch
import proofs.«118520_j73246372266146_1_alg».proof.Proof.Gen.KernelIdeal.Points
import proofs.«118520_j73246372266146_1_alg».proof.Proof.Gen.KernelIdeal.Frame
import proofs.«118520_j73246372266146_1_alg».proof.Proof.Gen.ReferenceIdeal
import proofs.«118520_j73246372266146_1_alg».proof.Proof.Gen.Pre_finite_inputs
import proofs.«118520_j73246372266146_1_alg».proof.Proof.Gen.ReferenceIdeal.Run
import proofs.«118520_j73246372266146_1_alg».proof.Proof.Gen.ReferenceIdeal.Read
import proofs.«118520_j73246372266146_1_alg».proof.Proof.GruKernelRun
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2) (Cert.ReferenceIdeal.Value.run (F := Ideal) m ρ),
  trivial,
  by
    intro m ρ m' ρ' _ hagree
    refine ⟨fun c => Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
      fun c => Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
      fun c => Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
      Cert.KernelIdeal.GruRun.run m ρ, ?_⟩
    refine (θ_run Cert.ReferenceIdeal.defs _ _).mono (fun _ h c => ?_) (Cert.ReferenceIdeal.Value.run (F := Ideal) m' ρ')
    obtain ⟨h0, h1, h2, hargs⟩ := h c
    obtain ⟨a0, a1, a2, a3, a4, a5, a6, a7, a8, a9, a10⟩ := hagree c
    refine ⟨h0.trans ?_, h1.trans ?_, h2.trans ?_, hargs⟩
    · rw [Cert.ReferenceIdeal.Read.val_main_v62_eq, a0, a1, a2, a3, a4, a5, a6, a7, a8, a9, a10]
    · rw [Cert.ReferenceIdeal.Read.val_main_v69_eq, a0, a1, a2, a3, a4, a5, a6, a7, a8, a9, a10]
    · rw [a0, a2, a4]
      exact Cert.ReferenceIdeal.Read.val_main_v76_eq _ _ _⟩

end Cert.Proof

end
